-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1000000 : Shape := ⟨2, ![64, 1000000]⟩
abbrev S_ : Shape := ⟨0, ![]⟩

class Facts : Prop where
  bcast_S_S64x1000000 : S_.BroadcastsInDim S64x1000000 (![] : Fin 0 → Fin S64x1000000.rank)
  reducesTo_S64x1000000_S_d0_1 : S64x1000000.ReducesTo [0, 1] S_
  h_S_ : 0 < S_.numel

variable [Facts]

def fn {F : FTy → Type} [FloatOps F] (main_arg0 : FVec F S64x1000000 .f32) (main_arg1 : FVec F S64x1000000 .f32) : IVec S_ 1 :=
  let main_v0 : FVec F S64x1000000 .f32 := Host.absf main_arg0
  let main_cst : FVec F S_ .f32 := constant S_ .f32 0x7F800000#32
  let main_v1 : FVec F S64x1000000 .f32 := broadcastInDim S64x1000000 ![] bcast_S_S64x1000000 main_cst
  let main_v2 : IVec S64x1000000 1 := cmpf .olt main_v0 main_v1
  let main_c : IVec S_ 1 := constantI S_ 1 1#1
  let main_v3 : IVec S_ 1 := (fun x v => Host.reduce IntOp.andi x v reducesTo_S64x1000000_S_d0_1 h_S_) main_v2 main_c
  let main_v4 : FVec F S64x1000000 .f32 := Host.absf main_arg1
  let main_cst_0 : FVec F S_ .f32 := constant S_ .f32 0x7F800000#32
  let main_v5 : FVec F S64x1000000 .f32 := broadcastInDim S64x1000000 ![] bcast_S_S64x1000000 main_cst_0
  let main_v6 : IVec S64x1000000 1 := cmpf .olt main_v4 main_v5
  let main_c_1 : IVec S_ 1 := constantI S_ 1 1#1
  let main_v7 : IVec S_ 1 := (fun x v => Host.reduce IntOp.andi x v reducesTo_S64x1000000_S_d0_1 h_S_) main_v6 main_c_1
  let main_v8 : IVec S_ 1 := andi main_v3 main_v7
  main_v8
-- ==== Kernel.lean ====
abbrev S64x1000000 : Shape := ⟨2, ![64, 1000000]⟩
abbrev S_ : Shape := ⟨0, ![]⟩
abbrev S64x1024000 : Shape := ⟨2, ![64, 1024000]⟩
abbrev S1x1 : Shape := ⟨2, ![1, 1]⟩
abbrev S64x25600 : Shape := ⟨2, ![64, 25600]⟩
abbrev S64 : Shape := ⟨1, ![64]⟩
abbrev S64x1 : Shape := ⟨2, ![64, 1]⟩
abbrev S1 : Shape := ⟨1, ![1]⟩

abbrev nBuf : Space → Nat
  | .hbm => 10
  | .vmem => 5
  | .smem => 0
  | _ => 0

abbrev bufTy : (tb : Table) → Fin (tcTables nBuf tb) → BufTy
  | .hbm, ⟨0, _⟩ => ⟨S64x1000000, .f32⟩
  | .hbm, ⟨1, _⟩ => ⟨S64x1000000, .f32⟩
  | .hbm, ⟨2, _⟩ => ⟨S_, .f32⟩
  | .hbm, ⟨3, _⟩ => ⟨S_, .f32⟩
  | .hbm, ⟨4, _⟩ => ⟨S64x1024000, .f32⟩
  | .hbm, ⟨5, _⟩ => ⟨S_, .f32⟩
  | .hbm, ⟨6, _⟩ => ⟨S_, .f32⟩
  | .hbm, ⟨7, _⟩ => ⟨S64x1024000, .f32⟩
  | .hbm, ⟨8, _⟩ => ⟨S1x1, .f32⟩
  | .hbm, ⟨9, _⟩ => ⟨S_, .f32⟩
  | .local _ .vmem, ⟨0, _⟩ => ⟨S64x25600, .f32⟩
  | .local _ .vmem, ⟨1, _⟩ => ⟨S64x25600, .f32⟩
  | .local _ .vmem, ⟨2, _⟩ => ⟨S64x25600, .f32⟩
  | .local _ .vmem, ⟨3, _⟩ => ⟨S64x25600, .f32⟩
  | .local _ .vmem, ⟨4, _⟩ => ⟨S1x1, .f32⟩
  | _, _ => ⟨S64x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_cst_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x25600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x25600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  pads_S64x1000000_S64x1024000_000_0240000 : S64x1000000.Pads (![0, 0] : Fin 2 → Nat) ![0, 24000] ![0, 0] S64x1024000
  h_S_ : 0 < S_.numel
  inb_S1x1_S1x1_0_0 : ∀ a, (![0, 0] : Fin 2 → Nat) a + S1x1.size a ≤ S1x1.size a
  h_S1x1 : 0 < S1x1.numel
  inb_S64x25600_S64x25600_0_0 : ∀ a, (![0, 0] : Fin 2 → Nat) a + S64x25600.size a ≤ S64x25600.size a
  h_S64x25600 : 0 < S64x25600.numel
  shapeCasts_S64x25600_S64x25600 : S64x25600.ShapeCasts S64x25600
  natLt_1_32 : 1 < 32
  reduces_S64x25600_S64 : S64x25600.Reduces [1] S64
  shapeCasts_S64_S64x1 : S64.ShapeCasts S64x1
  reduces_S64x1_S1 : S64x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x25600.size a ≤ S64x1024000.size a
  hwx0_0 : ∀ i : grid0.Coords, EltTy.bits .f32 = 32 ∨ (Rect.block (s := S64x1024000) S64x25600.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x25600.size a ≤ S64x1024000.size a
  hwx0_1 : ∀ i : grid0.Coords, EltTy.bits .f32 = 32 ∨ (Rect.block (s := S64x1024000) S64x25600.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S64x25600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x25600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1000000 : Shape := ⟨2, ![64, 1000000]⟩
abbrev S64000000 : Shape := ⟨1, ![64000000]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S64x1000000, .f32⟩
  | .hbm, ⟨1, _⟩ => ⟨S64x1000000, .f32⟩
  | .hbm, ⟨2, _⟩ => ⟨S64000000, .f32⟩
  | .hbm, ⟨3, _⟩ => ⟨S64000000, .f32⟩
  | .hbm, ⟨4, _⟩ => ⟨S64000000, .i1⟩
  | .hbm, ⟨5, _⟩ => ⟨S64000000, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S64x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  shapeCasts_S64x1000000_S64000000 : S64x1000000.ShapeCasts S64000000
  reducesTo_S64000000_S_d0 : S64000000.ReducesTo [0] S_
  h_S_ : 0 < S_.numel

variable [Facts₀]

class Facts : Prop extends Facts₀ where

variable [Facts]
-- ==== Proof.Pieces.lean ====
/-
  What the kernel's body leaves in the 1 × 1 accumulator block, in each of its three control cases, as a function of
  the two 64 × 25600 input blocks `x0`, `x1` it loads and of what the block held before (`xo2`). Write `step` for the
  body's middle part (the block plus the tile's count: the payload `k0_pay2`), `zero` for the block of zeros the first
  point stores (`k0_pay1`), `finish` for the last point's `1 - block / 64000000` (`k0_pay3`):

    * first point (reset taken, finish not):  `step x0 x1 zero`          — the block is reset, then read back;
    * a middle point (neither):               `step x0 x1 xo2`;
    * last point (finish taken, reset not):   `finish (step x0 x1 xo2)`  — the stepped block is read back and finished.

  Each store covers the whole block, so the last store's value is what remains, and a load after a store reads that
  store's value. These hold for any float values.
-/
import proofs.«155051_j69355131896602_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

/-- The offsets of a load or store of a whole block: zero on both axes. -/
theorem hz : (![0, 0] : Fin 2 → Nat) = fun _ => 0 := funext fun a => by fin_cases a <;> rfl

/-- A middle point: one store of the stepped block, whose three loads read the whole buffers. -/
theorem out_B (c : Dev nD) (i : grid0.Coords) (a1 : Memref sig .tc .vmem S64x25600 .f32) (h1 : a1.IsWhole)
    (a2 : Memref sig .tc .vmem S64x25600 .f32) (h2 : a2.IsWhole) (a3 : Memref sig .tc .vmem S1x1 .f32) (h3 : a3.IsWhole)
    (hc0 : ¬cond0_0 i) (hc1 : ¬cond0_1 i) (x0 x1 : Vec F S64x25600 .f32) (xo2 : Vec F S1x1 .f32) :
    out0_B_2 c i a1 h1 a2 h2 a3 h3 hc0 hc1 x0 x1 xo2 = k0_pay2 x0 x1 xo2 := by
  unfold out0_B_2
  rw [View.read_writes_eq_canon _ _ _ (cover0_B_2 c i a1 h1 a2 h2 a3 h3 hc0 hc1 x0 x1 xo2)]
  unfold kernelRun0_B
  dsimp only
  rw [View.canon_unit_zero hz]
  simp only [View.readAt_eq_ld, h1.read_unread, h2.read_unread, h3.read_unread, View.ld_unit_zero (S := S64x25600) hz,
    View.ld_unit_zero (S := S1x1) hz]

/-- The first point: the block of zeros is stored, read back, and stepped. -/
theorem out_A (c : Dev nD) (i : grid0.Coords) (a1 : Memref sig .tc .vmem S64x25600 .f32) (h1 : a1.IsWhole)
    (a2 : Memref sig .tc .vmem S64x25600 .f32) (h2 : a2.IsWhole) (a3 : Memref sig .tc .vmem S1x1 .f32) (h3 : a3.IsWhole)
    (hc0 : cond0_0 i) (hc1 : ¬cond0_1 i) (x0 x1 : Vec F S64x25600 .f32) :
    out0_A_2 c i a1 h1 a2 h2 a3 h3 hc0 hc1 x0 x1 = k0_pay2 x0 x1 k0_pay1 := by
  unfold out0_A_2
  rw [View.read_writes_eq_canon _ _ _ (cover0_A_2 c i a1 h1 a2 h2 a3 h3 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S64x25600) hz,
    View.ld_unit_zero (S := S1x1) hz]

/-- The last point: the stepped block is stored, read back, and finished. -/
theorem out_C (c : Dev nD) (i : grid0.Coords) (a1 : Memref sig .tc .vmem S64x25600 .f32) (h1 : a1.IsWhole)
    (a2 : Memref sig .tc .vmem S64x25600 .f32) (h2 : a2.IsWhole) (a3 : Memref sig .tc .vmem S1x1 .f32) (h3 : a3.IsWhole)
    (hc0 : ¬cond0_0 i) (hc1 : cond0_1 i) (x0 x1 : Vec F S64x25600 .f32) (xo2 : Vec F S1x1 .f32) :
    out0_C_2 c i a1 h1 a2 h2 a3 h3 hc0 hc1 x0 x1 xo2 = k0_pay3 (k0_pay2 x0 x1 xo2) := by
  unfold out0_C_2
  rw [View.read_writes_eq_canon _ _ _ (cover0_C_2 c i a1 h1 a2 h2 a3 h3 hc0 hc1 x0 x1 xo2)]
  unfold kernelRun0_C
  dsimp only
  sl_unfold_words
  rw [View.canon_cons_unit_zero (S := S1x1) hz, View.readCov_unit_zero (S := S1x1) _ hz]
  simp only [View.readAt_eq_ld, h1.read_unread, h2.read_unread, h3.read_unread, View.ld_unit_zero (S := S64x25600) hz,
    View.ld_unit_zero (S := S1x1) hz]

end Cert.KernelIdeal.Acc

end
-- ==== Proof.Count.lean ====
/-
  The number both programs compute. For two 64 × 1000000 arrays `x`, `y` of extended reals, `count x y` is the
  number of positions (r, j) with `x (r, j) < y (r, j)`, written as a double sum of an indicator, and the result is
  `1 - count / 64000000`.

  The indicator `below a b` is 1 where `a < b` and 0 elsewhere: the comparison's bit read as an unsigned integer.
  `cell x y r j` is the indicator at row `r`, column `j`, extended by 0 outside the array, so that sums over it may
  run over any range of natural numbers. Two arrangements of the same sum are proved equal to `count`:
    * a sum over one flat index `i < 64 · 1000000`, read at row `i / 1000000` and column `i % 1000000`;
    * a sum over 40 tiles of 64 rows × 25600 columns, tile `s` holding columns `25600 · s + c`, which run to
      1024000: the columns from 1000000 on contribute 0;
  both by the one fact that a sum over `a < m`, `b < n` of `g (n · a + b)` is the sum of `g` over `k < m · n`
  (every `k` is `n · a + b` once). Only commutativity and associativity of addition are used, so nothing is asked of
  the entries: they may be infinite.
-/
import Idealize.ShloMosaic.PureOps.Ideal
import Idealize.ShloMosaic.PureOps.Ideal.Laws
import Idealize.ShloMosaic.Lib.ValueIdx

noncomputable section

namespace Cert.WinRate

open Idealize.ShloMosaic Idealize.ShloMosaic.ValueIdx
open scoped BigOperators

/-- A 64 × 1000000 array of extended reals. -/
abbrev Arr : Type := (⟨2, ![64, 1000000]⟩ : Shape).Idx → EReal

/-- 1 where `a < b`, 0 elsewhere: the bit of the comparison, read as an unsigned integer. -/
def below (a b : EReal) : EReal := (((Ideal.cmp .olt a b).toNat : ℝ) : EReal)

theorem below_of_lt {a b : EReal} (h : a < b) : below a b = 1 := by
  simp [below, Ideal.cmp, h]

theorem below_of_not_lt {a b : EReal} (h : ¬a < b) : below a b = 0 := by
  simp [below, Ideal.cmp, h]

/-- Zero is not below minus one. -/
theorem below_zero_negOne : below 0 (-1) = 0 :=
  below_of_not_lt (not_lt.mpr (by
    rw [← EReal.coe_one, ← EReal.coe_neg, ← EReal.coe_zero]
    exact EReal.coe_le_coe_iff.mpr (by norm_num)))

/-- The indicator of `x < y` at row `r`, column `j`; 0 when (r, j) is outside the 64 × 1000000 array. -/
def cell (x y : Arr) (r j : ℕ) : EReal :=
  if h : r < 64 ∧ j < 1000000 then below (x (ix2 ⟨r, h.1⟩ ⟨j, h.2⟩)) (y (ix2 ⟨r, h.1⟩ ⟨j, h.2⟩)) else 0

theorem cell_inside (x y : Arr) (r : Fin 64) (j : Fin 1000000) :
    cell x y r.val j.val = below (x (ix2 r j)) (y (ix2 r j)) := by
  unfold cell
  rw [dif_pos ⟨r.isLt, j.isLt⟩]

theorem cell_outside (x y : Arr) (r j : ℕ) (h : 1000000 ≤ j) : cell x y r j = 0 := by
  unfold cell
  rw [dif_neg (fun hh => by omega)]

/-- How many positions have `x` below `y`. -/
def count (x y : Arr) : EReal := ∑ r ∈ Finset.range 64, ∑ j ∈ Finset.range 1000000, cell x y r j

/-- The result: one minus the fraction of positions with `x` below `y`; the two words are 1.0 and 64000000.0. -/
def winRate (x y : Arr) : EReal :=
  Ideal.ofBits .f32 0x3F800000#32 - Ideal.div (count x y) (Ideal.ofBits .f32 0x4C742400#32)

/-- Every `k < m · n` is `n · a + b` for exactly one `a < m`, `b < n`: a double sum over (a, b) of a function of
    `n · a + b` is the single sum over `k`. -/
theorem sum_range_mul {M : Type*} [AddCommMonoid M] (g : ℕ → M) (n : ℕ) :
    ∀ m : ℕ, ∑ a ∈ Finset.range m, ∑ b ∈ Finset.range n, g (n * a + b) = ∑ k ∈ Finset.range (n * m), g k
  | 0 => by simp
  | m + 1 => by
    rw [Finset.sum_range_succ, sum_range_mul g n m, Nat.mul_succ, Finset.sum_range_add]

/-- The flat arrangement: index `i < 64000000` read at row `i / 1000000`, column `i % 1000000`. -/
theorem sum_flat (x y : Arr) :
    ∑ i ∈ Finset.range 64000000, cell x y (i / 1000000) (i % 1000000) = count x y := by
  have h := sum_range_mul (fun k => cell x y (k / 1000000) (k % 1000000)) 1000000 64
  rw [show 1000000 * 64 = 64000000 from by norm_num] at h
  rw [← h]
  unfold count
  refine Finset.sum_congr rfl fun a _ => Finset.sum_congr rfl fun b hb => ?_
  have hb' : b < 1000000 := Finset.mem_range.mp hb
  show cell x y ((1000000 * a + b) / 1000000) ((1000000 * a + b) % 1000000) = cell x y a b
  rw [show (1000000 * a + b) / 1000000 = a from by omega, show (1000000 * a + b) % 1000000 = b from by omega]

/-- One tile's part: rows `r < 64`, columns `25600 · s + c` for `c < 25600`. -/
def tile (x y : Arr) (s : ℕ) : EReal :=
  ∑ r ∈ Finset.range 64, ∑ c ∈ Finset.range 25600, cell x y r (25600 * s + c)

/-- The tiled arrangement: the 40 tiles cover columns below 1024000, and those from 1000000 on are 0. -/
theorem sum_tiles (x y : Arr) : ∑ s ∈ Finset.range 40, tile x y s = count x y := by
  unfold tile count
  rw [Finset.sum_comm]
  refine Finset.sum_congr rfl fun r _ => ?_
  rw [sum_range_mul (fun k => cell x y r k) 25600 40, show 25600 * 40 = 1000000 + 24000 from by norm_num,
    Finset.sum_range_add]
  rw [Finset.sum_eq_zero (s := Finset.range 24000) fun k _ => cell_outside x y r (1000000 + k) (by omega), add_zero]

end Cert.WinRate

end
-- ==== Proof.Payload.lean ====
/-
  The body's three stored values, read at the accumulator block's one entry, on the extended reals.

  For 64 × 25600 blocks `x0`, `x1` and the block's previous contents `acc`:
    * the reset value is 0;
    * the stepped value is `acc + ∑ r < 64, ∑ c < 25600, below (x0 (r, c)) (x1 (r, c))`: the comparison's bit, widened
      to a word and converted as a signed integer, is the indicator `below`; the sum along the columns of row `r` is the
      sum over `c`; the 64 row sums, laid as a column, are summed over `r`; both reductions start from the zero word,
      which adds nothing;
    * the finished value is `1.0 - acc / 64000000.0`, the two constants kept as their words.
-/
import proofs.«155051_j69355131896602_1_alg».proof.Proof.Gen.KernelIdeal.Skeleton
import proofs.«155051_j69355131896602_1_alg».proof.Proof.Count
import Idealize.ShloMosaic.Lib.Pipeline.Value
import Idealize.ShloMosaic.Lib.ValueIdx
import Idealize.ShloMosaic.Lib.KernelVsHost
import Idealize.ShloMosaic.PureOps.Ideal.Laws

noncomputable section

open Idealize.ShloMosaic Idealize.ShloMosaic.TcCoe Idealize.ShloMosaic.ValueIdx
open scoped BigOperators

namespace Cert.KernelIdeal.Acc

open Cert.KernelIdeal Cert.KernelIdeal.Gen Cert.WinRate

/-- One entry of the mask: the comparison's bit widened to a word and converted as a signed integer is the indicator. -/
theorem mask_apply (x0 x1 : FVec Ideal S64x25600 .f32) (h : 1 < 32) (i : S64x25600.Idx) :
    (sitofp .f32 (extui 32 (cmpf .olt x0 x1) h) : FVec Ideal S64x25600 .f32) i = below (x0 i) (x1 i) :=
  congrFun (sitofp_extui_eq_uitofp (φ := .f32) (cmpf .olt x0 x1) h) i

/-- A row's sum: the reduction along the columns, read at row `r`. -/
theorem rowSum_apply (v : FVec Ideal S64x25600 .f32) (h : S64x25600.Reduces [1] S64) (hφ : FKind.Formats .f32)
    (hacc : (0x00000000#32 : BitVec 32) = FKind.add.neutral .f32 hφ) (r : Fin 64) :
    multiReduction .add [1] S64 v 0x00000000#32 h hφ hacc (ix1 r) = ∑ c : Fin 25600, v (ix2 r c) :=
  (Ideal.multiReduction_add_single v 0x00000000#32 h hφ hacc (ix1 r)).trans
    (Finset.sum_congr rfl fun c _ => congrArg v (funext fun a => by match a with | ⟨0, _⟩ => rfl | ⟨1, _⟩ => rfl))

/-- The sum down the one column of row sums. -/
theorem colSum_apply (v : FVec Ideal S64x1 .f32) (h : S64x1.Reduces [0] S1) (hφ : FKind.Formats .f32)
    (hacc : (0x00000000#32 : BitVec 32) = FKind.add.neutral .f32 hφ) (j : S1.Idx) :
    multiReduction .add [0] S1 v 0x00000000#32 h hφ hacc j = ∑ r : Fin 64, v (ix2 r (0 : Fin 1)) :=
  (Ideal.multiReduction_add_single v 0x00000000#32 h hφ hacc j).trans
    (Finset.sum_congr rfl fun r _ => congrArg v (funext fun a => by
      match a with
      | ⟨0, _⟩ => rfl
      | ⟨1, _⟩ => exact Fin.ext (by have := (h.lift j r ⟨1, by decide⟩).isLt; simp at this ⊢; omega)))

/-- The reset value: the zero word. -/
theorem pay1_apply (y : S1x1.Idx) : k0_pay1 (F := Ideal) y = 0 := by
  show Ideal.ofBits .f32 0x00000000#32 = 0
  exact Ideal.ofBits_zero_f32

/-- The finished value: one minus the block over 64000000. -/
theorem pay3_apply (v : Vec Ideal S1x1 .f32) (y : S1x1.Idx) :
    k0_pay3 (F := Ideal) v y = Ideal.ofBits .f32 0x3F800000#32 - Ideal.div (v y) (Ideal.ofBits .f32 0x4C742400#32) := by
  unfold k0_pay3
  simp only [shapeCast_self]
  rfl

/-- The stepped value: the block plus the number of entries of `x0` below `x1`. -/
theorem pay2_apply (x0 x1 : Vec Ideal S64x25600 .f32) (acc : Vec Ideal S1x1 .f32) (y : S1x1.Idx) :
    k0_pay2 (F := Ideal) x0 x1 acc y = acc y + ∑ r : Fin 64, ∑ c : Fin 25600, below (x0 (ix2 r c)) (x1 (ix2 r c)) := by
  unfold k0_pay2
  simp only [shapeCast_self]
  refine congrArg (acc y + ·) ?_
  refine (shapeCast_apply _ _ y (ix1 (0 : Fin 1)) (by
    rw [Shape.rowMajor_val_two, Shape.rowMajor_val_one]
    have h0 := (y 0).isLt; have h1 := (y 1).isLt
    simp at h0 h1 ⊢; omega)).trans ?_
  refine (colSum_apply _ _ _ _ _).trans ?_
  refine Finset.sum_congr rfl fun r _ => ?_
  refine (shapeCast_apply _ _ (ix2 r (0 : Fin 1)) (ix1 r) (by
    rw [Shape.rowMajor_val_two, Shape.rowMajor_val_one]; show r.val = r.val * 1 + 0; omega)).trans ?_
  refine (rowSum_apply _ _ _ _ r).trans ?_
  exact Finset.sum_congr rfl fun c _ => mask_apply x0 x1 _ (ix2 r c)

end Cert.KernelIdeal.Acc

end
-- ==== Proof.Blocks.lean ====
/-
  The two input blocks the body loads at tile `t`, entry by entry, in terms of the two argument arrays.

  Before the kernel runs, each 64 × 1000000 argument is padded on the right to 1024000 columns (40 tiles of 25600):
  the first with 0, the second with -1. Tile `t` loads columns `25600 · t` to `25600 · t + 25599` of all 64 rows. So
  entry (r, c) of the tile's first block is the first argument at (r, 25600 · t + c) when that column is below
  1000000, and 0 beyond; likewise the second block, with -1 beyond. Since 0 is not below -1, the indicator of
  "first below second" at a padded column is 0: it is `cell` at that row and column in every case.
-/
import proofs.«155051_j69355131896602_1_alg».proof.Proof.Gen.KernelIdeal.Frame
import proofs.«155051_j69355131896602_1_alg».proof.Proof.Count
import Idealize.ShloMosaic.Lib.Pipeline.Value
import Idealize.ShloMosaic.Lib.ValueIdx
import Idealize.ShloMosaic.Lib.KernelVsHost
import Idealize.ShloMosaic.Lib.StableHlo.Run
import Idealize.ShloMosaic.Lib.Tactic

noncomputable section

open Idealize.ShloMosaic Idealize.ShloMosaic.TcCoe Idealize.ShloMosaic.ValueIdx Idealize.SL.Sem
open scoped BigOperators

namespace Cert.KernelIdeal.Acc

open Cert.KernelIdeal Cert.KernelIdeal.Gen Cert.WinRate

variable (m : (ℓ : Loc nD τ sig) → Buf (Elt Ideal) ℓ)

/-- The first operand as the region finds it: the first argument padded with the zero word on 24000 more columns. -/
theorem V_v0 (c : Dev nD) : (V m c main_v0 : S64x1024000.Idx → EReal) =
    pad S64x1024000 ![0, 0] ![0, 24000] ![0, 0] (m ((c : Thread nD τ).loc main_arg0)) (constant (F := Ideal) S_ .f32 0x00000000#32)
      pads_S64x1000000_S64x1024000_000_0240000 h_S_ := by
  dsimp only [V, V0]
  simp only [hostOps0, hostOps0_1, hostOps0_2, hostOps0_3, List.flatten_cons, List.flatten_nil, List.append_nil, List.cons_append,
    List.nil_append]
  after_results
  rfl

/-- The second operand as the region finds it: the second argument padded with the word of -1. -/
theorem V_v1 (c : Dev nD) : (V m c main_v1 : S64x1024000.Idx → EReal) =
    pad S64x1024000 ![0, 0] ![0, 24000] ![0, 0] (m ((c : Thread nD τ).loc main_arg1)) (constant (F := Ideal) S_ .f32 0xBF800000#32)
      pads_S64x1000000_S64x1024000_000_0240000 h_S_ := by
  dsimp only [V, V0]
  simp only [hostOps0, hostOps0_1, hostOps0_2, hostOps0_3, List.flatten_cons, List.flatten_nil, List.append_nil, List.cons_append,
    List.nil_append]
  after_results
  rfl

/-- Tile `t`'s block of the first operand is block (0, t): all 64 rows, columns from 25600 · t. -/
theorem idx0 : ∀ t : Fin cfg0.N, win0_0.index t 0 = 0 ∧ win0_0.index t 1 = t.val :=
  (by decide +kernel : ∀ t : Fin grid0.N, win0_0.index t 0 = 0 ∧ win0_0.index t 1 = t.val)

/-- The same for the second operand. -/
theorem idx1 : ∀ t : Fin cfg0.N, win0_1.index t 0 = 0 ∧ win0_1.index t 1 = t.val :=
  (by decide +kernel : ∀ t : Fin grid0.N, win0_1.index t 0 = 0 ∧ win0_1.index t 1 = t.val)

/-- Entry (r, c) of tile `t`'s block is the padded array's entry (r, 25600 · t + c). -/
theorem iblk0_apply (c : Dev nD) (t : Fin cfg0.N) (r : Fin 64) (cc : Fin 25600) (k : Fin 1024000)
    (hk : k.val = 25600 * t.val + cc.val) :
    (iblk m c 0 t : Vec Ideal S64x25600 .f32) (ix2 r cc) = (V m c main_v0 : S64x1024000.Idx → EReal) (ix2 r k) := by
  unfold iblk
  rw [View.read_apply]
  show V m c main_v0 _ = V m c main_v0 _
  congr 1
  funext a
  apply Fin.ext
  match a with
  | ⟨0, _⟩ => show win0_0.index t 0 * 64 + 1 * r.val = r.val; rw [(idx0 t).1]; omega
  | ⟨1, _⟩ => show win0_0.index t 1 * 25600 + 1 * cc.val = k.val; rw [(idx0 t).2, hk]; omega

/-- The same for the second operand. -/
theorem iblk1_apply (c : Dev nD) (t : Fin cfg0.N) (r : Fin 64) (cc : Fin 25600) (k : Fin 1024000)
    (hk : k.val = 25600 * t.val + cc.val) :
    (iblk m c 1 t : Vec Ideal S64x25600 .f32) (ix2 r cc) = (V m c main_v1 : S64x1024000.Idx → EReal) (ix2 r k) := by
  unfold iblk
  rw [View.read_apply]
  show V m c main_v1 _ = V m c main_v1 _
  congr 1
  funext a
  apply Fin.ext
  match a with
  | ⟨0, _⟩ => show win0_1.index t 0 * 64 + 1 * r.val = r.val; rw [(idx1 t).1]; omega
  | ⟨1, _⟩ => show win0_1.index t 1 * 25600 + 1 * cc.val = k.val; rw [(idx1 t).2, hk]; omega

/-- The word of minus one. -/
theorem ofBits_negOne : Ideal.ofBits .f32 0xBF800000#32 = -1 := IdealRules.sign_bit.ideal_negOnePat .f32

/-- A padded array at a column below 1000000 is the array there. -/
theorem pad_inside (x : Arr) (w : BitVec 32) (r : Fin 64) (k : Fin 1024000) (hk : k.val < 1000000) :
    pad S64x1024000 ![0, 0] ![0, 24000] ![0, 0] x (constant (F := Ideal) S_ .f32 w)
      pads_S64x1000000_S64x1024000_000_0240000 h_S_ (ix2 r k) = x (ix2 r ⟨k.val, hk⟩) :=
  pad_apply_of_inside _ _ _ x _ pads_S64x1000000_S64x1024000_000_0240000 h_S_ (ix2 r k) (ix2 r ⟨k.val, hk⟩) (fun a => by
    match a with
    | ⟨0, _⟩ => show r.val = 0 + r.val * (0 + 1); omega
    | ⟨1, _⟩ => show k.val = 0 + k.val * (0 + 1); omega)

/-- A padded array at a column from 1000000 on is the padding value. -/
theorem pad_outside (x : Arr) (w : BitVec 32) (r : Fin 64) (k : Fin 1024000) (hk : 1000000 ≤ k.val) :
    pad S64x1024000 ![0, 0] ![0, 24000] ![0, 0] x (constant (F := Ideal) S_ .f32 w)
      pads_S64x1000000_S64x1024000_000_0240000 h_S_ (ix2 r k) = Ideal.ofBits .f32 w :=
  pad_apply_of_not_inside _ _ _ x _ pads_S64x1000000_S64x1024000_000_0240000 h_S_ (ix2 r k) (1 : Fin 2) (by
    show ¬(0 ≤ k.val ∧ (k.val - 0) % (0 + 1) = 0 ∧ (k.val - 0) / (0 + 1) < 1000000)
    omega)

/-- The indicator at entry (r, c) of tile `t` is `cell` at row `r`, column `25600 · t + c`: inside the arrays both
    sides read the same two entries; in the padding the kernel compares 0 with -1, which is not below, and `cell` is 0. -/
theorem mask_cell (c : Dev nD) (t : Fin cfg0.N) (r : Fin 64) (cc : Fin 25600) :
    below ((iblk m c 0 t : Vec Ideal S64x25600 .f32) (ix2 r cc)) ((iblk m c 1 t : Vec Ideal S64x25600 .f32) (ix2 r cc))
      = cell (m ((c : Thread nD τ).loc main_arg0)) (m ((c : Thread nD τ).loc main_arg1)) r.val (25600 * t.val + cc.val) := by
  have hN : t.val < 40 := lt_of_lt_of_eq t.isLt (show cfg0.N = 40 from N_0)
  have hcc : cc.val < 25600 := cc.isLt
  have hkk : 25600 * t.val + cc.val < 1024000 := by omega
  rw [iblk0_apply m c t r cc ⟨_, hkk⟩ rfl, iblk1_apply m c t r cc ⟨_, hkk⟩ rfl, V_v0, V_v1]
  by_cases hk : 25600 * t.val + cc.val < 1000000
  · rw [pad_inside _ _ r ⟨_, hkk⟩ hk, pad_inside _ _ r ⟨_, hkk⟩ hk]
    exact (cell_inside _ _ r ⟨_, hk⟩).symm
  · rw [pad_outside _ _ r ⟨_, hkk⟩ (by show 1000000 ≤ 25600 * t.val + cc.val; omega),
      pad_outside _ _ r ⟨_, hkk⟩ (by show 1000000 ≤ 25600 * t.val + cc.val; omega),
      cell_outside _ _ _ _ (by omega), Ideal.ofBits_zero_f32, ofBits_negOne]
    exact below_zero_negOne

end Cert.KernelIdeal.Acc

end
-- ==== Proof.Accumulate.lean ====
/-
  The kernel's result is `winRate` of its two arguments.

  The kernel visits 40 tiles in order, keeping one 1 × 1 block across them. At the first tile the block is reset to 0
  and the tile's count is added; at each later tile the tile's count is added to what the block held; at the last
  tile the block is then replaced by `1.0 - block / 64000000.0` and written to the 1 × 1 result, which a final
  reshape reads as a scalar. Tile `t`'s count is `tile x y t` (the entries of its two blocks are the padded
  arguments': Blocks), so before the last tile the block holds `∑ s ≤ t, tile x y s`, and the 40 parts together are
  `count x y` (`sum_tiles`).
-/
import proofs.«155051_j69355131896602_1_alg».proof.Proof.Pieces
import proofs.«155051_j69355131896602_1_alg».proof.Proof.Payload
import proofs.«155051_j69355131896602_1_alg».proof.Proof.Blocks
import Idealize.ShloMosaic.Lib.Pipeline.Value
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)
open scoped BigOperators

namespace Cert.KernelIdeal.Acc

open Cert.KernelIdeal Cert.KernelIdeal.Gen Cert.WinRate

variable (m : (ℓ : Loc nD τ sig) → Buf (Elt Ideal) ℓ) (ρ : Dev nD → PrngReg)

/-- The two argument arrays on core `c`. -/
abbrev X0 (c : Dev nD) : Arr := m ((c : Thread nD τ).loc main_arg0)
abbrev X1 (c : Dev nD) : Arr := m ((c : Thread nD τ).loc main_arg1)

/-- The count over tile `t`'s two blocks is the tile's part of the count. -/
theorem tile_sum (c : Dev nD) (t : Fin cfg0.N) :
    ∑ r : Fin 64, ∑ cc : Fin 25600, below ((iblk m c 0 t : Vec Ideal S64x25600 .f32) (ix2 r cc))
        ((iblk m c 1 t : Vec Ideal S64x25600 .f32) (ix2 r cc))
      = tile (X0 m c) (X1 m c) t.val := by
  unfold tile
  rw [Finset.sum_range]
  refine Finset.sum_congr rfl fun r _ => ?_
  rw [Finset.sum_range]
  exact Finset.sum_congr rfl fun cc _ => mask_cell m c t r cc

/-- One step at tile `t`: the block plus the tile's part. -/
theorem step_eq (c : Dev nD) (t : Fin cfg0.N) (acc : Vec Ideal S1x1 .f32) (y : S1x1.Idx) :
    k0_pay2 (F := Ideal) (iblk m c 0 t) (iblk m c 1 t) acc y = acc y + tile (X0 m c) (X1 m c) t.val :=
  (pay2_apply (iblk m c 0 t) (iblk m c 1 t) acc y).trans (congrArg (acc y + ·) (tile_sum m c t))

/-- Before the last tile the block holds the parts of the tiles so far: 0 plus tile 0 after the first, one more
    part after each later one. By induction on the tile. -/
theorem acc_lt (c : Dev nD) : ∀ (n : ℕ) (h : n < cfg0.N), n < 39 → ∀ y : S1x1.Idx,
    outsAt0 m c n h y = ∑ s ∈ Finset.range (n + 1), tile (X0 m c) (X1 m c) s
  | 0, h, _, y => by
    have e := (outsAt0_A m c ⟨0, h⟩ rfl (by intro hh; dsimp only at hh; omega)).trans
      (out_A (F := Ideal) c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) _ _ (iblk m c 0 ⟨0, h⟩) (iblk m c 1 ⟨0, h⟩))
    refine (congrFun e y).trans ?_
    rw [step_eq m c ⟨0, h⟩, pay1_apply, zero_add, Finset.sum_range_one]
  | n + 1, h, hlt, y => by
    have h0 : ¬(⟨n + 1, h⟩ : Fin cfg0.N).val % 40 = 0 := by dsimp only; omega
    have h1 : ¬(⟨n + 1, h⟩ : Fin cfg0.N).val % 40 = 39 := by dsimp only; omega
    have e := (outsAt0_B m c ⟨n + 1, h⟩ h0 h1).trans
      (out_B (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) _ _ (iblk m c 0 ⟨n + 1, h⟩) (iblk m c 1 ⟨n + 1, h⟩)
        (outsAt0 m c n (Nat.lt_of_succ_lt h)))
    refine (congrFun e y).trans ?_
    rw [step_eq m c ⟨n + 1, h⟩, acc_lt c n _ (by omega) y, Finset.sum_range_succ (fun s => tile (X0 m c) (X1 m c) s) (n + 1)]

/-- After the last tile: the 39 earlier parts plus the last are the whole count, and the block is finished to
    `1.0 - count / 64000000.0`. -/
theorem acc_last (c : Dev nD) (h : 39 < cfg0.N) (y : S1x1.Idx) : outsAt0 m c 39 h y = winRate (X0 m c) (X1 m c) := by
  have h0 : ¬(⟨39, h⟩ : Fin cfg0.N).val % 40 = 0 := by intro hh; dsimp only at hh; omega
  have e := (outsAt0_C m c ⟨39, h⟩ h0 rfl).trans
    (out_C (F := Ideal) c (grid0.coords ⟨39, h⟩) (ms0_0 ⟨39, h⟩) (hs0_0 ⟨39, h⟩) (ms0_1 ⟨39, h⟩) (hs0_1 ⟨39, h⟩)
      (ms0_2 ⟨39, h⟩) (hs0_2 ⟨39, h⟩) _ _ (iblk m c 0 ⟨39, h⟩) (iblk m c 1 ⟨39, h⟩)
      (outsAt0 m c 38 (Nat.lt_of_succ_lt h)))
  refine (congrFun e y).trans ?_
  rw [pay3_apply, step_eq m c ⟨39, h⟩, acc_lt m c 38 _ (by norm_num) y]
  show _ - Ideal.div (∑ s ∈ Finset.range 39, tile (X0 m c) (X1 m c) s + tile (X0 m c) (X1 m c) 39) _ = _
  rw [← Finset.sum_range_succ (fun s => tile (X0 m c) (X1 m c) s) 39, sum_tiles]
  rfl

/-- The result array after the run: its one entry the win rate. -/
abbrev result (c : Dev nD) : Buf (Elt Ideal) ((c : Thread nD τ).loc main_v2) := fun _ => winRate (X0 m c) (X1 m c)

/-- The result's one block is block (0, 0) at every tile. -/
theorem idx2 : ∀ t : Fin cfg0.N, win0_2.index t 0 = 0 ∧ win0_2.index t 1 = 0 :=
  (by decide +kernel : ∀ t : Fin grid0.N, win0_2.index t 0 = 0 ∧ win0_2.index t 1 = 0)

/-- The one write-back, after the last tile, writes the win rate. -/
theorem flushed_eq (c : Dev nD) (t : Fin cfg0.N) (hf : (cfg0.win 2).flush t = true) :
    (dats m 0 c).flushed 2 t = ((cfg0.win 2).blk t).view.read (Elt Ideal) (result m c) := by
  have hN : cfg0.N = 40 := N_0
  have h39 : t.val = 39 := by have := (flush0_2 t).mp hf; have := t.isLt; omega
  obtain ⟨n, hn⟩ := t
  dsimp only at h39
  subst h39
  show (cfg0.win 2).cut (grid0.coords _) ((dats m 0 c).after 2 _) = _
  rw [after0_2]
  funext y
  rw [View.read_apply]
  exact acc_last m c hn _

/-- That write-back covers the 1 × 1 result array. -/
theorem cover (c : Dev nD) (i : S1x1.Idx) :
    ∃ t : Fin cfg0.N, (cfg0.win 2).flush t = true ∧ i ∈ ((cfg0.win 2).blk t).view.set := by
  have hN : 39 < cfg0.N := by rw [show cfg0.N = 40 from N_0]; norm_num
  refine ⟨⟨39, hN⟩, (flush0_2 _).mpr rfl, ?_⟩
  show i ∈ ((View.whole main_v2).slice (win0_2.rect ⟨39, hN⟩)).set
  rw [View.set_slice_whole, Rect.mem_set_unit]
  intro a
  have h0 : (i 0).val < 1 := (i 0).isLt
  have h1 : (i 1).val < 1 := (i 1).isLt
  obtain ⟨e0, e1⟩ := idx2 ⟨39, hN⟩
  match a with
  | ⟨0, _⟩ => show win0_2.index ⟨39, hN⟩ 0 * 1 ≤ (i 0).val ∧ (i 0).val < win0_2.index ⟨39, hN⟩ 0 * 1 + 1; omega
  | ⟨1, _⟩ => show win0_2.index ⟨39, hN⟩ 1 * 1 ≤ (i 1).val ∧ (i 1).val < win0_2.index ⟨39, hN⟩ 1 * 1 + 1; omega

/-- So the result array ends holding the win rate. -/
theorem final (c : Dev nD) : (dats m 0 c).arrAt 2 cfg0.N = result m c :=
  (dats m 0 c).arrAt_eq_of_cover 2 (result m c) (flushed_eq m c) (cover c)

/-- The reshape after the kernel reads the 1 × 1 array's one entry as a scalar: the win rate. -/
theorem tail_eq (c : Dev nD) :
    Pipeline.afterTail₀ cfgs (dats m) 0 (V0 m) [hostOps1] c main_v3 = fun _ => winRate (X0 m c) (X1 m c) := by
  unfold Pipeline.afterTail₀
  show StableHlo.after hostOps1 _ (Proc.devRef .tc main_v3) = _
  after_results
  funext i
  have e : Pipeline.withArrays spec0 c (V0 m c) (fun w => (dats m 0 c).arrAt w cfg0.N) (Proc.devRef .tc main_v2) = result m c :=
    (Pipeline.withArrays_arr spec0 launch0.win.arr_inj c (V0 m c) (fun w => (dats m 0 c).arrAt w cfg0.N) 2).trans (final m c)
  show shapeCast S_ (Pipeline.withArrays spec0 c (V0 m c) (fun w => (dats m 0 c).arrAt w cfg0.N) (Proc.devRef .tc main_v2))
    shapeCasts_S1x1_S_ i = _
  rw [e]
  rfl

/-- The kernel's run, read: its result is the win rate of its two arguments, which end unchanged. -/
theorem run : θ_run defs (onTc (τ := τ) (main (F := Ideal))) ⟨m, fun _ => 0, ρ⟩ fun r => ∀ c : Dev nD,
      r.2.mem ((c.tc : Thread nD τ).loc main_v3) = (fun _ => winRate (X0 m c) (X1 m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Acc

end
-- ==== Proof.RefValue.lean ====
/-
  The reference's result is `winRate` of its two arguments.

  The reference flattens both 64 × 1000000 arrays to 64000000 entries (entry `i` is row `i / 1000000`, column
  `i % 1000000`), compares them entry by entry, converts each bit to 0 or 1, sums all of them from 0, divides by
  64000000.0 and subtracts from 1.0. The sum over the flat index is the double sum over rows and columns (`sum_flat`).
-/
import proofs.«155051_j69355131896602_1_alg».proof.Proof.Gen.ReferenceIdeal.Read
import proofs.«155051_j69355131896602_1_alg».proof.Proof.Count
import Idealize.ShloMosaic.Lib.ValueIdx
import Idealize.ShloMosaic.PureOps.Ideal.Laws

noncomputable section

open Idealize.ShloMosaic Idealize.ShloMosaic.TcCoe Idealize.ShloMosaic.ValueIdx
open scoped BigOperators

namespace Cert.ReferenceIdeal.RefValue

open Cert.ReferenceIdeal Cert.ReferenceIdeal.Gen Cert.ReferenceIdeal.Read Cert.WinRate

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The reference's flat entry `j`, the comparison's bit converted, is `cell` at row `j / 1000000`, column
    `j % 1000000`: the flattening reads both arrays there. -/
theorem entry (x y : Arr) (j : S64000000.Idx) :
    val_main_v3 (F := Ideal) x y j = cell x y ((j 0).val / 1000000) ((j 0).val % 1000000) := by
  rw [val_main_v3_apply, val_main_v2_apply, val_main_v0_apply, val_main_v1_apply]
  have h0 : (j 0).val < 64000000 := (j 0).isLt
  have e0 : idx_main_v0 j = ix2 (⟨(j 0).val / 1000000, by omega⟩ : Fin 64) (⟨(j 0).val % 1000000, by omega⟩ : Fin 1000000) :=
    funext fun a => by match a with | ⟨0, _⟩ => rfl | ⟨1, _⟩ => rfl
  have e1 : idx_main_v1 j = ix2 (⟨(j 0).val / 1000000, by omega⟩ : Fin 64) (⟨(j 0).val % 1000000, by omega⟩ : Fin 1000000) :=
    funext fun a => by match a with | ⟨0, _⟩ => rfl | ⟨1, _⟩ => rfl
  rw [e0, e1]
  exact (cell_inside x y ⟨(j 0).val / 1000000, by omega⟩ ⟨(j 0).val % 1000000, by omega⟩).symm

/-- The reference's sum over the flat index is the count. -/
theorem total (x y : Arr) : ∑ j : S64000000.Idx, val_main_v3 (F := Ideal) x y j = count x y := by
  rw [sum_idx1]
  rw [← sum_flat x y, Finset.sum_range]
  exact Finset.sum_congr rfl fun a _ => entry x y (ix1 a)

/-- The reference's result: `1.0 - (0 + count) / 64000000.0`; the initial zero adds nothing. -/
theorem ref_eq (x y : Arr) (i : S_.Idx) : val_main_v6 (F := Ideal) x y i = winRate x y := by
  rw [val_main_v6_apply, val_main_v5_apply, val_main_v4_apply, val_main_cst_1_apply, val_main_cst_0_apply,
    val_main_cst_apply, total]
  show Ideal.ofBits .f32 0x3F800000#32 - Ideal.div (Ideal.ofBits .f32 0x00000000#32 + count x y) (Ideal.ofBits .f32 0x4C742400#32) = _
  rw [Ideal.ofBits_zero_f32, zero_add]
  rfl

end Cert.ReferenceIdeal.RefValue

end
-- ==== Proof.lean ====
/-
  Both programs compute the win rate: one minus the fraction of the 64 × 1000000 positions at which the first array
  is below the second, `1.0 - count / 64000000.0` (Proof/Count.lean).

  The reference compares the flattened arrays, sums the 0/1 bits and divides (Proof/RefValue.lean). The kernel pads
  both arrays on the right to 1024000 columns — with 0 and with -1, so that no padded position counts —, adds up the
  count tile by tile over 40 tiles of 25600 columns in one block kept across the tiles, and finishes the block at the
  last tile (Proof/Pieces.lean, Payload.lean, Blocks.lean, Accumulate.lean). The two sums are rearrangements of one
  finite sum, equal on the extended reals by commutativity and associativity alone: the entries may be anything, and
  the precondition is not used. The idealized kernel is the kernel's own text, so nothing is owed for it.
-/
import proofs.«155051_j69355131896602_1_alg».proof.Defs
import proofs.«155051_j69355131896602_1_alg».proof.Proof.Gen.Kernel
import proofs.«155051_j69355131896602_1_alg».proof.Proof.Gen.Kernel.Skeleton
import proofs.«155051_j69355131896602_1_alg».proof.Proof.Gen.Kernel.Launch
import proofs.«155051_j69355131896602_1_alg».proof.Proof.Gen.Kernel.Points
import proofs.«155051_j69355131896602_1_alg».proof.Proof.Gen.Kernel.Frame
import proofs.«155051_j69355131896602_1_alg».proof.Proof.Gen.KernelIdeal
import proofs.«155051_j69355131896602_1_alg».proof.Proof.Gen.KernelIdeal.Skeleton
import proofs.«155051_j69355131896602_1_alg».proof.Proof.Gen.KernelIdeal.Launch
import proofs.«155051_j69355131896602_1_alg».proof.Proof.Gen.KernelIdeal.Points
import proofs.«155051_j69355131896602_1_alg».proof.Proof.Gen.KernelIdeal.Frame
import proofs.«155051_j69355131896602_1_alg».proof.Proof.Gen.ReferenceIdeal
import proofs.«155051_j69355131896602_1_alg».proof.Proof.Gen.ReferenceIdeal.Run
import proofs.«155051_j69355131896602_1_alg».proof.Proof.Gen.ReferenceIdeal.Read
import proofs.«155051_j69355131896602_1_alg».proof.Proof.Gen.Pre_finite_inputs
import proofs.«155051_j69355131896602_1_alg».proof.Proof.Accumulate
import proofs.«155051_j69355131896602_1_alg».proof.Proof.RefValue
import Idealize.ShloMosaic.Adequacy
import Idealize.ShloMosaic.Init

noncomputable section

namespace Cert.Proof

open Idealize.ShloMosaic Idealize.ShloMosaic.TcCoe Idealize.SL.Sem

/-- Each program runs to the end without a fault and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's text read on the extended reals: no rewrite to account for. -/
theorem preserves : Cert.preserves_Kernel_KernelIdeal := trivial

/-- From memories that agree on the two arguments, the kernel's result and the reference's are both the win rate
    of those arguments. -/
theorem algebraic : Cert.algebraic_KernelIdeal_ReferenceIdeal := by
  intro m ρ m' ρ' _ hagree
  refine ⟨fun c => fun _ => Cert.WinRate.winRate (Cert.KernelIdeal.Acc.X0 m c) (Cert.KernelIdeal.Acc.X1 m c),
    Cert.KernelIdeal.Acc.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, (hagree c).1, (hagree c).2]
  funext i
  exact Cert.ReferenceIdeal.RefValue.ref_eq _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
